-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S600000 .f32) (main_arg2 : FVec F S128x128 .f32) (main_arg3 : FVec F S128 .f32) (main_arg4 : IVec S600000 32) (main_arg5 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg1
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S2000x128 : Shape := ⟨2, ![2000, 128]⟩
abbrev S1x128 : Shape := ⟨2, ![1, 128]⟩

abbrev nBuf : Space → Nat
  | .hbm => 23
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S600000, .f32⟩
  | .hbm, ⟨2, _⟩ => ⟨S128x128, .f32⟩
  | .hbm, ⟨3, _⟩ => ⟨S128, .f32⟩
  | .hbm, ⟨4, _⟩ => ⟨S600000, .i32⟩
  | .hbm, ⟨5, _⟩ => ⟨S600000, .i32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S600000x1, .f32⟩
  | .hbm, ⟨16, _⟩ => ⟨S600000x128, .f32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .f32⟩
  | .hbm, ⟨2, _⟩ => ⟨S128x128, .f32⟩
  | .hbm, ⟨3, _⟩ => ⟨S128, .f32⟩
  | .hbm, ⟨4, _⟩ => ⟨S600000, .i32⟩
  | .hbm, ⟨5, _⟩ => ⟨S600000, .i32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S600000x1, .f32⟩
  | .hbm, ⟨16, _⟩ => ⟨S600000x128, .f32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Dense.lean ====
/-
  The dense layer both programs end with, as one function on the extended reals:
  entry (p, q) of the result is the sum over k of a[p, k] · w[k, q], plus b[q].
  Nothing here depends on a program: the shapes are the literal ones, [50000, 128] rows, a [128, 128] weight
  and a [128] bias.
-/
import Idealize.ShloMosaic.PureOps.Ideal
import Idealize.ShloMosaic.Lib.ValueIdx

noncomputable section

open scoped BigOperators
open Idealize.ShloMosaic Idealize.ShloMosaic.ValueIdx

namespace Cert.Dense

/-- Entry (p, q) of `a · w + b`: row `p` of `a` against column `q` of `w`, then the bias of column `q`. -/
def entry (a : (⟨2, ![50000, 128]⟩ : Shape).Idx → EReal) (w : (⟨2, ![128, 128]⟩ : Shape).Idx → EReal)
    (b : (⟨1, ![128]⟩ : Shape).Idx → EReal) (p : Fin 50000) (q : Fin 128) : EReal :=
  (∑ k : Fin 128, a (ix2 p k) * w (ix2 k q)) + b (ix1 q)

/-- The whole result array `a · w + b`, index by index. -/
def layer (a : (⟨2, ![50000, 128]⟩ : Shape).Idx → EReal) (w : (⟨2, ![128, 128]⟩ : Shape).Idx → EReal)
    (b : (⟨1, ![128]⟩ : Shape).Idx → EReal) : (⟨2, ![50000, 128]⟩ : Shape).Idx → EReal :=
  fun i => entry a w b (i 0) (i 1)

theorem layer_apply (a : (⟨2, ![50000, 128]⟩ : Shape).Idx → EReal) (w : (⟨2, ![128, 128]⟩ : Shape).Idx → EReal)
    (b : (⟨1, ![128]⟩ : Shape).Idx → EReal) (p : Fin 50000) (q : Fin 128) :
    layer a w b (ix2 p q) = (∑ k : Fin 128, a (ix2 p k) * w (ix2 k q)) + b (ix1 q) := rfl

end Cert.Dense

end
-- ==== Proof.BodyValue.lean ====
/-
  What the kernel body stores, read at one entry.  The body loads a [2000, 128] block `x0` of the aggregated
  rows, the whole [128, 128] weight `x1` and the [128] bias `x2`; it narrows the two matrix operands to bf16
  (the identity on extended reals), multiplies them into a zero accumulator, and adds the bias broadcast along
  the rows.  So entry (p, q) of what it stores is  Σ_k x0[p, k] · x1[k, q]  +  x2[q].
-/
import proofs.«171247_j88957362635436_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-- Coordinate 0 of the product's left operand index is the output's row. -/
theorem lhs_row (i : S2000x128.Idx) (κ : dot_S2000x128_S128x128_S2000x128_1_0_0_1_n_n.contr.Idx) :
    (dot_S2000x128_S128x128_S2000x128_1_0_0_1_n_n.lhsIdx i κ 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- Coordinate 1 of the product's right operand index is the output's column. -/
theorem rhs_col (i : S2000x128.Idx) (κ : dot_S2000x128_S128x128_S2000x128_1_0_0_1_n_n.contr.Idx) :
    (dot_S2000x128_S128x128_S2000x128_1_0_0_1_n_n.rhsIdx i κ 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The matrix product's left operand index at output (p, q) and contraction position k is (p, k). -/
theorem lhs_at (p : Fin 2000) (q k : Fin 128) :
    dot_S2000x128_S128x128_S2000x128_1_0_0_1_n_n.lhsIdx (ix2 p q)
        ((contrEquiv1 dot_S2000x128_S128x128_S2000x128_1_0_0_1_n_n 128 rfl rfl).symm k) = ix2 p k := by
  have hk := contrEquiv1_symm_val dot_S2000x128_S128x128_S2000x128_1_0_0_1_n_n 128 rfl rfl k
  refine funext fun a => Fin.ext ?_
  match a with
  | ⟨0, _⟩ => exact lhs_row _ _
  | ⟨1, _⟩ => exact (dot_S2000x128_S128x128_S2000x128_1_0_0_1_n_n.lhsIdx_val_of_single rfl _ _).trans hk

/-- The right operand index at output (p, q) and contraction position k is (k, q). -/
theorem rhs_at (p : Fin 2000) (q k : Fin 128) :
    dot_S2000x128_S128x128_S2000x128_1_0_0_1_n_n.rhsIdx (ix2 p q)
        ((contrEquiv1 dot_S2000x128_S128x128_S2000x128_1_0_0_1_n_n 128 rfl rfl).symm k) = ix2 k q := by
  have hk := contrEquiv1_symm_val dot_S2000x128_S128x128_S2000x128_1_0_0_1_n_n 128 rfl rfl k
  refine funext fun a => Fin.ext ?_
  match a with
  | ⟨0, _⟩ => exact (dot_S2000x128_S128x128_S2000x128_1_0_0_1_n_n.rhsIdx_val_of_single rfl _ _).trans hk
  | ⟨1, _⟩ => exact rhs_col _ _

/-- The product into the zero accumulator, at entry (p, q): the sum over the 128 contraction positions. -/
theorem product_at (l : FVec Ideal S2000x128 .bf16) (r : FVec Ideal S128x128 .bf16) (p : Fin 2000) (q : Fin 128) :
    matmul (F := Ideal) dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  rw [lhs_at, rhs_at]

/-- The bias, viewed as one row and repeated down the 2000 rows, at entry (p, q) is the bias at q. -/
theorem bias_at (b : FVec Ideal S128 .f32) (p : Fin 2000) (q : Fin 128) :
    broadcastTo S2000x128 (shapeCast S1x128 b shapeCasts_S128_S1x128) broadcasts_S1x128_S2000x128 (ix2 p q) = b (ix1 q) := by
  rw [broadcastTo_apply _ broadcasts_S1x128_S2000x128 (ix2 p q) (ix2 (⟨0, Nat.one_pos⟩ : Fin 1) q) (fun a => by
    match a with
    | ⟨0, _⟩ => rfl
    | ⟨1, _⟩ => rfl)]
  exact shapeCast_apply b shapeCasts_S128_S1x128 _ (ix1 q) (by
    rw [Shape.rowMajor_val_one, Shape.rowMajor_val_two]
    show q.val = 0 * 128 + q.val
    omega)

/-- Entry (p, q) of what the body stores. -/
theorem stored_at (x0 : Vec Ideal S2000x128 .f32) (x1 : Vec Ideal S128x128 .f32) (x2 : Vec Ideal S128 .f32)
    (p : Fin 2000) (q : Fin 128) :
    k0_pay1 (F := Ideal) x0 x1 x2 (ix2 p q) = (∑ k : Fin 128, x0 (ix2 p k) * x1 (ix2 k q)) + x2 (ix1 q) := by
  unfold k0_pay1
  show matmul (F := Ideal) dot_S2000x128_S128x128_S2000x128_1_0_0_1_n_n none _ _ _ (ix2 p q) + broadcastTo S2000x128 _ _ (ix2 p q) = _
  rw [product_at, bias_at, shapeCast_self]
  rfl

end Cert.KernelIdeal.Body

end
-- ==== Proof.Aggregate.lean ====
/-
  The aggregation both programs compute on the host before the dense layer: gather row src(e) of the node
  features for every edge e (a negative index wrapped once by the row count), scale it by the edge's weight,
  and add the scaled rows into row dst(e) of a zero array.  The dense layer is applied to whatever this
  produces, so it is kept here as ONE named function of the four arrays it reads and is never opened.
-/
import proofs.«171247_j88957362635436_1_alg».proof.Proof.Gen.KernelIdeal
import Idealize.ShloMosaic.PureOps.Ideal

noncomputable section

open Idealize.ShloMosaic

namespace Cert.KernelIdeal.Host

open Cert.KernelIdeal Cert.KernelIdeal.Gen

/-- The aggregated rows, as a function of the node features `x`, the edge weights `ew`, and the edges' source and
    destination node indices. -/
def aggregate (x : (⟨S50000x128, .f32⟩ : BufTy).Contents (Elt Ideal)) (ew : (⟨S600000, .f32⟩ : BufTy).Contents (Elt Ideal))
    (src dst : (⟨S600000, .i32⟩ : BufTy).Contents (Elt Ideal)) : (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (mulf (F := Ideal)
      (Host.gather gather_S50000x128_S600000x1_S600000x128_1_0_n_n_0_1_1128 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src)))
      (broadcastInDim S600000x128 ![0, 1] bcast_S600000x1_S600000x128_0_1
        (broadcastInDim S600000x1 ![0] bcast_S600000_S600000x1_0 ew)))

end Cert.KernelIdeal.Host

end
-- ==== Proof.KernelValue.lean ====
/-
  The kernel's result array as one function of the argument arrays.
  The grid has 25 points; point t takes rows 2000·t … 2000·t + 1999 of the aggregated array, the whole weight
  and the whole bias, and writes the same rows of the result.  Entry (p, q) of what it writes is the dense layer's
  entry (2000·t + p, q); the 25 row blocks tile the 50000 rows, so after the run the result array is the dense
  layer of the aggregated array, index by index.  The aggregated array is what the host operations before the
  launch leave: the aggregation of the four arrays it reads.
-/
import proofs.«171247_j88957362635436_1_alg».proof.Proof.Gen.KernelIdeal.Value
import proofs.«171247_j88957362635436_1_alg».proof.Proof.Dense
import proofs.«171247_j88957362635436_1_alg».proof.Proof.BodyValue
import proofs.«171247_j88957362635436_1_alg».proof.Proof.Aggregate
import Idealize.ShloMosaic.Lib.Pipeline.Value
import Idealize.ShloMosaic.Lib.ValueIdx
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- Where each window's block sits at grid point t: the rows window and the result window at block row t, the
    weight and the bias at their only block. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The result array the run should leave: the dense layer of the arrays the launch finds. -/
abbrev target (c : Dev nD) : S50000x128.Idx → EReal :=
  Cert.Dense.layer (V m c main_v12) (V m c main_arg2) (V m c main_arg3)

/-- The rows block at point t, at (p, k), is the aggregated array at row 2000·t + p. -/
theorem rows_block (c : Dev nD) (t : Fin cfg0.N) (x : S2000x128.Idx) (i : S50000x128.Idx)
    (h0 : (i 0).val = t.val * 2000 + (x 0).val) (h1 : (i 1).val = (x 1).val) :
    (iblk m c 0 t : Vec Ideal S2000x128 .f32) x = (V m c main_v12 : S50000x128.Idx → EReal) i := by
  obtain ⟨e0, e1, -⟩ := block_index t
  unfold iblk
  rw [View.read_apply]
  show V m c main_v12 _ = V m c main_v12 _
  congr 1
  funext a
  apply Fin.ext
  match a with
  | ⟨0, _⟩ => show win0_0.index t (0 : Fin 2) * 2000 + 1 * (x 0).val = (i 0).val; rw [e0, h0]; omega
  | ⟨1, _⟩ => show win0_0.index t (1 : Fin 2) * 128 + 1 * (x 1).val = (i 1).val; rw [e1, h1]; omega

/-- The weight block at any point is the whole weight. -/
theorem weight_block (c : Dev nD) (t : Fin cfg0.N) (x : S128x128.Idx) :
    (iblk m c 1 t : Vec Ideal S128x128 .f32) x = (V m c main_arg2 : S128x128.Idx → EReal) x := by
  obtain ⟨-, -, e0, e1, -⟩ := block_index t
  unfold iblk
  rw [View.read_apply]
  show V m c main_arg2 _ = V m c main_arg2 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- The bias block at any point is the whole bias. -/
theorem bias_block (c : Dev nD) (t : Fin cfg0.N) (x : S128.Idx) :
    (iblk m c 2 t : Vec Ideal S128 .f32) x = (V m c main_arg3 : S128.Idx → EReal) x := by
  obtain ⟨-, -, -, -, e0, -⟩ := block_index t
  unfold iblk
  rw [View.read_apply]
  show V m c main_arg3 _ = V m c main_arg3 _
  congr 1
  funext a
  apply Fin.ext
  match a with
  | ⟨0, _⟩ => show win0_2.index t (0 : Fin 1) * 128 + 1 * (x 0).val = (x 0).val; rw [e0]; omega

/-- What the body stores from blocks that are rows of `a`, all of `w` and all of `b`, at a block entry `y`
    sitting at array index `i`, is the dense layer of `a`, `w`, `b` at `i`. -/
theorem stored_is_layer (x0 : Vec Ideal S2000x128 .f32) (x1 : Vec Ideal S128x128 .f32) (x2 : Vec Ideal S128 .f32)
    (a : S50000x128.Idx → EReal) (w : S128x128.Idx → EReal) (b : S128.Idx → EReal)
    (y : S2000x128.Idx) (i : S50000x128.Idx)
    (hrow : ∀ k : Fin 128, x0 (ix2 (y 0) k) = a (ix2 (i 0) k))
    (hw : ∀ k : Fin 128, x1 (ix2 k (y 1)) = w (ix2 k (i 1)))
    (hb : x2 (ix1 (y 1)) = b (ix1 (i 1))) :
    k0_pay1 (F := Ideal) x0 x1 x2 y = Cert.Dense.layer a w b i := by
  obtain ⟨p, q, rfl⟩ : ∃ (p : Fin 2000) (q : Fin 128), y = ix2 p q := ⟨y 0, y 1, eq_ix2 y⟩
  rw [Cert.KernelIdeal.Body.stored_at]
  unfold Cert.Dense.layer Cert.Dense.entry
  rw [hb]
  exact congrArg (· + b (ix1 (i 1))) (Finset.sum_congr rfl fun k _ => by rw [hrow k, hw k])

/-- WHAT POINT t WRITES BACK is block t of the target array. -/
theorem flushed_eq (c : Dev nD) (t : Fin cfg0.N) :
    (dats m 0 c).flushed 3 t = ((cfg0.win 3).blk t).view.read (Elt Ideal) (target m c) := by
  rw [flushed3]
  unfold out0_3
  rw [View.canon_unit_zero zero2]
  simp only [View.ld_unit_zero (S := S2000x128) zero2, View.ld_unit_zero (S := S128x128) zero2, View.ld_unit_zero (S := S128) zero1]
  obtain ⟨-, -, -, -, -, e0, e1⟩ := block_index t
  funext y
  show k0_pay1 (F := Ideal) (iblk m c 0 t) (iblk m c 1 t) (iblk m c 2 t) y = target m c (((cfg0.win 3).blk t).view.emb y)
  have r0 : ((((cfg0.win 3).blk t).view.emb y) 0).val = t.val * 2000 + (y 0).val := by
    show win0_3.index t (0 : Fin 2) * 2000 + 1 * (y 0).val = _; rw [e0]; omega
  have r1 : ((((cfg0.win 3).blk t).view.emb y) 1).val = (y 1).val := by
    show win0_3.index t (1 : Fin 2) * 128 + 1 * (y 1).val = _; rw [e1]; omega
  refine stored_is_layer (iblk m c 0 t) (iblk m c 1 t) (iblk m c 2 t) (V m c main_v12) (V m c main_arg2) (V m c main_arg3)
    y (((cfg0.win 3).blk t).view.emb y) (fun k => ?_) (fun k => ?_) ?_
  · exact rows_block m c t (ix2 (y 0) k) _ r0 rfl
  · rw [weight_block m c t]
    exact congrArg (V m c main_arg2 : S128x128.Idx → EReal) (funext fun a => Fin.ext (by
      match a with
      | ⟨0, _⟩ => rfl
      | ⟨1, _⟩ => exact r1.symm))
  · rw [bias_block m c t]
    exact congrArg (V m c main_arg3 : S128.Idx → EReal) (funext fun a => Fin.ext (by
      match a with
      | ⟨0, _⟩ => exact r1.symm))

/-- An index of the array is in point t's block iff each coordinate is in the block's range on its axis. -/
theorem mem_block (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v13).slice (win0_3.rect t)).set ↔ _
  rw [View.set_slice_whole, Rect.mem_set_unit]
  exact Iff.rfl

/-- Every index of the result array is in the block of the point its row falls in: row r is in block r / 2000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, e0, e1⟩ := block_index t
  have ht : t.val = (i 0).val / 2000 := rfl
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE RESULT ARRAY after the run is the target. -/
theorem final (c : Dev nD) : (dats m 0 c).arrAt 3 cfg0.N = target m c :=
  (dats m 0 c).arrAt_eq_of_cover 3 (target m c) (fun t _ => flushed_eq m c t) covered

/-- What the launch finds in the aggregated array: the host operations before it, composed, of the argument
    arrays as launched. -/
theorem aggregated (c : Dev nD) :
    (V m c main_v12 : S50000x128.Idx → EReal)
      = Cert.KernelIdeal.Host.aggregate (m ((c : Thread nD τ).loc main_arg0)) (m ((c : Thread nD τ).loc main_arg1))
          (m ((c : Thread nD τ).loc main_arg4)) (m ((c : Thread nD τ).loc main_arg5)) := by
  dsimp only [V, hostOps0]
  after_results
  rfl

/-- The run, read: the result array is the dense layer of the aggregation of the arguments; the arguments unchanged. -/
theorem run : θ_run defs (onTc (τ := τ) (main (F := Ideal))) ⟨m, fun _ => 0, ρ⟩ fun r => ∀ c : Dev nD,
      r.2.mem ((c : Thread nD τ).loc main_v13)
        = Cert.Dense.layer
            (Cert.KernelIdeal.Host.aggregate (m ((c : Thread nD τ).loc main_arg0)) (m ((c : Thread nD τ).loc main_arg1))
              (m ((c : Thread nD τ).loc main_arg4)) (m ((c : Thread nD τ).loc main_arg5)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (by
      unfold target
      rw [aggregated m c, V_main_arg2 m c, V_main_arg3 m c])), (h c).2⟩)
    (run_blocks m ρ)

end Cert.KernelIdeal.Whole

end
-- ==== Proof.RefValue.lean ====
/-
  The reference's last stage as the dense layer.  After the aggregation the reference takes one matrix product
  of the whole [50000, 128] array with the weight, and adds the bias viewed as one row and repeated down the
  rows: entry (p, q) is  Σ_k agg[p, k] · w[k, q]  +  b[q], the dense layer of the aggregation stage.
-/
import proofs.«171247_j88957362635436_1_alg».proof.Proof.Gen.ReferenceIdeal.Read
import proofs.«171247_j88957362635436_1_alg».proof.Proof.Dense
import Idealize.ShloMosaic.Lib.ValueIdx

noncomputable section

open scoped BigOperators
open Idealize.ShloMosaic Idealize.ShloMosaic.ValueIdx

namespace Cert.ReferenceIdeal.Layer

open Cert.ReferenceIdeal Cert.ReferenceIdeal.Gen Cert.ReferenceIdeal.Read

/-- The reference's result stage is the dense layer of its aggregation stage, the weight and the bias. -/
theorem result_is_layer (x0 : (⟨S50000x128, .f32⟩ : BufTy).Contents (Elt Ideal)) (x1 : (⟨S600000, .f32⟩ : BufTy).Contents (Elt Ideal))
    (x2 : (⟨S128x128, .f32⟩ : BufTy).Contents (Elt Ideal)) (x3 : (⟨S128, .f32⟩ : BufTy).Contents (Elt Ideal))
    (x4 x5 : (⟨S600000, .i32⟩ : BufTy).Contents (Elt Ideal)) :
    val_main_v16 (F := Ideal) x0 x1 x2 x3 x4 x5 = Cert.Dense.layer (val_main_v12 (F := Ideal) x0 x1 x4 x5) x2 x3 := by
  funext i
  obtain ⟨p, q, rfl⟩ : ∃ (p : Fin 50000) (q : Fin 128), i = ix2 p q := ⟨i 0, i 1, eq_ix2 i⟩
  have el : ∀ k : Fin 128, lidx_main_v13 (ix2 p q) k = ix2 p k := fun k => funext fun a => Fin.ext (by
    match a with
    | ⟨0, _⟩ => rfl
    | ⟨1, _⟩ => rfl)
  have er : ∀ k : Fin 128, ridx_main_v13 (ix2 p q) k = ix2 k q := fun k => funext fun a => Fin.ext (by
    match a with
    | ⟨0, _⟩ => rfl
    | ⟨1, _⟩ => rfl)
  have eb : idx_main_v14 (idx_main_v15 (ix2 p q)) = ix1 q := funext fun a => Fin.ext (by
    match a with
    | ⟨0, _⟩ => rfl)
  rw [val_main_v16_apply, val_main_v13_apply, val_main_v15_apply, val_main_v14_apply, Cert.Dense.layer_apply]
  simp only [el, er, eb, Ideal.addf_def]

end Cert.ReferenceIdeal.Layer

end
-- ==== Proof.lean ====
/-
  A graph layer: aggregate, for every node, the weighted feature rows of the edges that arrive at it, then apply a
  dense layer  agg · W + b.  Both programs compute the aggregation with the same host operations (a row gather by
  source node, a product with the edge weight, a scatter-add by destination node into zeros); they differ only in
  the dense layer.  The reference takes ONE [50000, 128] × [128, 128] product and adds the bias; the kernel walks
  the 50000 rows in 25 blocks of 2000, narrows both matrix operands to bf16, multiplies into a zero accumulator and
  adds the bias.  On the extended reals narrowing is the identity and a product into zero is the plain sum
  Σ_k agg[p, k] · W[k, q], so each entry of each block is the reference's entry: the two results are the same
  function, the dense layer (Proof/Dense.lean) of the same aggregation (Proof/Aggregate.lean), with no law of
  arithmetic used beyond  0 + s = s.  No input needs to be finite.

  Proof/BodyValue.lean reads one entry of what the kernel body stores; Proof/KernelValue.lean places the 25 blocks in
  the result array and reads the aggregated array the launch finds; Proof/RefValue.lean reads the reference's last
  stage.  The three frames are the generated ones (the reference's is its generated run with the result dropped), and
  the idealization rewrote nothing, so there is nothing to preserve.
-/
import proofs.«171247_j88957362635436_1_alg».proof.Defs
import proofs.«171247_j88957362635436_1_alg».proof.Proof.Gen.Kernel
import proofs.«171247_j88957362635436_1_alg».proof.Proof.Gen.Kernel.Skeleton
import proofs.«171247_j88957362635436_1_alg».proof.Proof.Gen.Kernel.Launch
import proofs.«171247_j88957362635436_1_alg».proof.Proof.Gen.Kernel.Points
import proofs.«171247_j88957362635436_1_alg».proof.Proof.Gen.Kernel.Frame
import proofs.«171247_j88957362635436_1_alg».proof.Proof.Gen.KernelIdeal
import proofs.«171247_j88957362635436_1_alg».proof.Proof.Gen.KernelIdeal.Skeleton
import proofs.«171247_j88957362635436_1_alg».proof.Proof.Gen.KernelIdeal.Launch
import proofs.«171247_j88957362635436_1_alg».proof.Proof.Gen.KernelIdeal.Points
import proofs.«171247_j88957362635436_1_alg».proof.Proof.Gen.KernelIdeal.Frame
import proofs.«171247_j88957362635436_1_alg».proof.Proof.Gen.ReferenceIdeal
import proofs.«171247_j88957362635436_1_alg».proof.Proof.Gen.KernelIdeal.Value
import proofs.«171247_j88957362635436_1_alg».proof.Proof.Gen.ReferenceIdeal.Run
import proofs.«171247_j88957362635436_1_alg».proof.Proof.Gen.ReferenceIdeal.Read
import proofs.«171247_j88957362635436_1_alg».proof.Proof.Gen.Pre_finite_inputs
import proofs.«171247_j88957362635436_1_alg».proof.Proof.KernelValue
import proofs.«171247_j88957362635436_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The reference's aggregation stage and the kernel's host prefix are the same operations of the same four arrays. -/
theorem aggregation_eq (x0 : (⟨Cert.ReferenceIdeal.S50000x128, .f32⟩ : BufTy).Contents (Elt Ideal))
    (x1 : (⟨Cert.ReferenceIdeal.S600000, .f32⟩ : BufTy).Contents (Elt Ideal))
    (x4 x5 : (⟨Cert.ReferenceIdeal.S600000, .i32⟩ : BufTy).Contents (Elt Ideal)) :
    Cert.ReferenceIdeal.Read.val_main_v12 (F := Ideal) x0 x1 x4 x5 = Cert.KernelIdeal.Host.aggregate x0 x1 x4 x5 := rfl

/-- Run from memories that agree on the six arguments, both programs end with the dense layer of the aggregation of
    the arguments in their result arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v16_eq, Cert.ReferenceIdeal.Layer.result_is_layer, aggregation_eq,
    h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
